-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel

variable [Facts]

def fn {F : FTy → Type} [FloatOps F] (main_arg0 : FVec F S8192x10000 .f32) (main_arg1 : IVec S8192x10000 32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  main_v3
-- ==== Kernel.lean ====
abbrev S8192x10000 : Shape := ⟨2, ![8192, 10000]⟩
abbrev S8192x128 : Shape := ⟨2, ![8192, 128]⟩
abbrev S128x10000 : Shape := ⟨2, ![128, 10000]⟩
abbrev S128x128 : Shape := ⟨2, ![128, 128]⟩
abbrev S128 : Shape := ⟨1, ![128]⟩
abbrev S128x1 : Shape := ⟨2, ![128, 1]⟩
abbrev S8192x1 : Shape := ⟨2, ![8192, 1]⟩
abbrev S8192 : Shape := ⟨1, ![8192]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x10000, .f32⟩
  | .hbm, ⟨1, _⟩ => ⟨S8192x10000, .i32⟩
  | .hbm, ⟨2, _⟩ => ⟨S8192x128, .f32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x10000, .i32⟩
  | .local _ .vmem, ⟨3, _⟩ => ⟨S128x10000, .i32⟩
  | .local _ .vmem, ⟨4, _⟩ => ⟨S128x128, .f32⟩
  | .local _ .vmem, ⟨5, _⟩ => ⟨S128x128, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x10000_S128x10000_0_0 : ∀ a, (![0, 0] : Fin 2 → Nat) a + S128x10000.size a ≤ S128x10000.size a
  h_S128x10000 : 0 < S128x10000.numel
  reduces_S128x10000_S128 : S128x10000.Reduces [1] S128
  shapeCasts_S128_S128x1 : S128.ShapeCasts S128x1
  natLt_1_32 : 1 < 32
  shapeCasts_S128x1_S128x1 : S128x1.ShapeCasts S128x1
  broadcasts_S128x1_S128x128 : S128x1.Broadcasts S128x128
  inb_S128x128_S128x128_0_0 : ∀ a, (![0, 0] : Fin 2 → Nat) a + S128x128.size a ≤ S128x128.size a
  h_S128x128 : 0 < S128x128.numel
  slices_S8192x128_S8192x1_0_0 : S8192x128.Slices ![0, 0] S8192x1
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S8192x10000.size a
  hwx0_1 : ∀ i : grid0.Coords, EltTy.bits .i32 = 32 ∨ (Rect.block (s := S8192x10000) S128x10000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)

variable [Facts₀]

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S_ : Shape := ⟨0, ![]⟩
abbrev S8192 : Shape := ⟨1, ![8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192x10000, .i32⟩
  | .hbm, ⟨2, _⟩ => ⟨S_, .i32⟩
  | .hbm, ⟨3, _⟩ => ⟨S8192x10000, .i32⟩
  | .hbm, ⟨4, _⟩ => ⟨S8192x10000, .i1⟩
  | .hbm, ⟨5, _⟩ => ⟨S8192x10000, .f32⟩
  | .hbm, ⟨6, _⟩ => ⟨S8192x10000, .f32⟩
  | .hbm, ⟨7, _⟩ => ⟨S_, .f32⟩
  | .hbm, ⟨8, _⟩ => ⟨S_, .f32⟩
  | .hbm, ⟨9, _⟩ => ⟨S8192x10000, .f32⟩
  | .hbm, ⟨10, _⟩ => ⟨S8192x10000, .f32⟩
  | .hbm, ⟨11, _⟩ => ⟨S_, .f32⟩
  | .hbm, ⟨12, _⟩ => ⟨S8192, .f32⟩
  | .hbm, ⟨13, _⟩ => ⟨S8192x10000, .f32⟩
  | .hbm, ⟨14, _⟩ => ⟨S_, .f32⟩
  | .hbm, ⟨15, _⟩ => ⟨S_, .f32⟩
  | .hbm, ⟨16, _⟩ => ⟨S8192x10000, .f32⟩
  | .hbm, ⟨17, _⟩ => ⟨S8192x10000, .f32⟩
  | .hbm, ⟨18, _⟩ => ⟨S_, .f32⟩
  | .hbm, ⟨19, _⟩ => ⟨S8192, .f32⟩
  | .hbm, ⟨20, _⟩ => ⟨S8192x10000, .i32⟩
  | .hbm, ⟨21, _⟩ => ⟨S_, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S_S8192x10000 : S_.BroadcastsInDim S8192x10000 (![] : Fin 0 → Fin S8192x10000.rank)
  reducesTo_S8192x10000_S8192_d1 : S8192x10000.ReducesTo [1] S8192
  h_S_ : 0 < S_.numel
  natLt_1_32 : 1 < 32
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibMarkedSums.lean ====
/-
  Marked sums and counts over a finite index type.

  A row of numbers comes with one bit per entry (the entry is marked or not).  Three kinds of fact are collected
  here, each over an abstract finite index type:

  * a finite sum of real numbers read as extended reals is the real sum (the extended reals have no general
    additivity of the coercion in the library, so it is proved by induction on the index set);
  * the sum of all the entries minus the sum of the marked entries is the sum of the unmarked entries, for real
    entries read as extended reals (the subtraction is exact because every partial sum is a real number);
  * counting the marked entries: adding the bits as 32-bit words gives the word of the count, adding them as
    (extended) real numbers gives the count, and for a count c of at most N marked entries with N * N below 2^31 the
    32-bit product c * (N - c), read as a signed integer, is the natural number c * (N - c).
-/
import Idealize.ShloMosaic.PureOps.Ideal
import Idealize.ShloMosaic.PureOps.Reduce
import Idealize.ShloMosaic.Lib.ValueIdx

namespace Cert.Lib.MarkedSums

open Idealize.ShloMosaic Idealize.ShloMosaic.ValueIdx

variable {ι : Type}

/-- A finite sum of reals, read as an extended real, is the sum of the terms read as extended reals. -/
theorem coe_sum (s : Finset ι) (r : ι → ℝ) : ((∑ k ∈ s, r k : ℝ) : EReal) = ∑ k ∈ s, ((r k : ℝ) : EReal) := by
  classical
  refine Finset.induction_on s (by simp) fun a s ha ih => ?_
  rw [Finset.sum_insert ha, Finset.sum_insert ha, EReal.coe_add, ih]

/-- Selecting a real or zero by a bit commutes with reading the real as an extended real. -/
theorem select_coe_zero (c : BitVec 1) (a : ℝ) :
    Scalar.select c ((a : ℝ) : EReal) 0 = ((Scalar.select c a 0 : ℝ) : EReal) := by
  by_cases hc : c = 1#1
  · rw [hc, select_one, select_one]
  · rw [eq_zero_of_ne_one hc, select_zero, select_zero, EReal.coe_zero]

/-- The same with the two branches exchanged. -/
theorem select_zero_coe (c : BitVec 1) (a : ℝ) :
    Scalar.select c 0 ((a : ℝ) : EReal) = ((Scalar.select c 0 a : ℝ) : EReal) := by
  by_cases hc : c = 1#1
  · rw [hc, select_one, select_one, EReal.coe_zero]
  · rw [eq_zero_of_ne_one hc, select_zero, select_zero]

/-- All entries minus the marked entries leaves the unmarked entries: for real entries e k read as extended reals,
    (Σ e) - (Σ over marked e) = Σ over unmarked e.  Every sum here is a real number, so nothing is lost in the
    subtraction. -/
theorem sum_sub_marked [Fintype ι] (b : ι → BitVec 1) (e : ι → ℝ) :
    (∑ k, ((e k : ℝ) : EReal)) - (∑ k, Scalar.select (b k) ((e k : ℝ) : EReal) 0)
      = ∑ k, Scalar.select (b k) 0 ((e k : ℝ) : EReal) := by
  simp only [select_coe_zero, select_zero_coe]
  rw [← coe_sum, ← coe_sum, ← coe_sum, ← EReal.coe_sub]
  refine congrArg _ ?_
  rw [← Finset.sum_sub_distrib]
  refine Finset.sum_congr rfl fun k _ => ?_
  by_cases hc : b k = 1#1
  · rw [hc, select_one, select_one, sub_self]
  · rw [eq_zero_of_ne_one hc, select_zero, select_zero, sub_zero]

/-- The number of marked entries. -/
def count [Fintype ι] (b : ι → BitVec 1) : ℕ := (Finset.univ.filter fun k => b k = 1#1).card

theorem count_le_card [Fintype ι] (b : ι → BitVec 1) : count b ≤ Fintype.card ι :=
  Finset.card_le_univ _

/-- Adding the bits as 32-bit words, from zero, in any order, gives the word of the number of marked entries. -/
theorem fold_addi_bits (s : Finset ι) (b : ι → BitVec 1) (f : ι → BitVec 32) (hf : ∀ k, f k = (b k).setWidth 32) :
    s.fold IntOp.addi 0#32 f = BitVec.ofNat 32 (s.filter fun k => b k = 1#1).card := by
  classical
  refine Finset.induction_on s (by simp) fun a s ha ih => ?_
  rw [Finset.fold_insert ha, ih, Finset.filter_insert, hf a]
  by_cases hc : b a = 1#1
  · rw [if_pos hc, Finset.card_insert_of_notMem (fun h => ha (Finset.mem_filter.1 h).1), hc, Nat.add_comm,
      BitVec.ofNat_add]
    rfl
  · rw [if_neg hc, eq_zero_of_ne_one hc]
    show (0#1 : BitVec 1).setWidth 32 + _ = _
    rw [show (0#1 : BitVec 1).setWidth 32 = 0#32 from by decide, BitVec.zero_add]

/-- Over the whole index type: the 32-bit sum of the bits is the word of the count. -/
theorem fold_addi_bits_univ [Fintype ι] (b : ι → BitVec 1) (f : ι → BitVec 32) (hf : ∀ k, f k = (b k).setWidth 32) :
    Finset.univ.fold IntOp.addi 0#32 f = BitVec.ofNat 32 (count b) :=
  fold_addi_bits Finset.univ b f hf

/-- A bit widened to 32 bits and read as a signed integer, then as a real, is 1 when the bit is set and 0 otherwise. -/
theorem bit_toInt (c : BitVec 1) : (((c.setWidth 32).toInt : ℤ) : ℝ) = if c = 1#1 then 1 else 0 := by
  by_cases hc : c = 1#1
  · rw [if_pos hc, hc, show ((1#1 : BitVec 1).setWidth 32).toInt = 1 from by decide, Int.cast_one]
  · rw [if_neg hc, eq_zero_of_ne_one hc, show ((0#1 : BitVec 1).setWidth 32).toInt = 0 from by decide, Int.cast_zero]

/-- Adding the bits as extended reals gives the number of marked entries. -/
theorem sum_bits_real [Fintype ι] (b : ι → BitVec 1) :
    ∑ k, (((((b k).setWidth 32).toInt : ℤ) : ℝ) : EReal) = ((count b : ℝ) : EReal) := by
  rw [← coe_sum]
  refine congrArg _ ?_
  simp only [bit_toInt]
  rw [Finset.sum_boole]
  rfl

/-- For c ≤ N with N * N < 2^31 the 32-bit word of c times the 32-bit difference of the words of N and c, read as a
    signed integer, is the natural number c * (N - c): neither the difference nor the product wraps around, and the
    product stays below the sign bit. -/
theorem toInt_mul_sub (c N : ℕ) (hc : c ≤ N) (hN : N * N < 2 ^ 31) :
    (IntOp.muli (BitVec.ofNat 32 c) (IntOp.subi (BitVec.ofNat 32 N) (BitVec.ofNat 32 c))).toInt
      = ((c * (N - c) : ℕ) : ℤ) := by
  have hNN : N ≤ N * N := Nat.le_mul_self N
  have hP : c * (N - c) ≤ N * N := Nat.mul_le_mul hc (Nat.sub_le N c)
  unfold IntOp.muli IntOp.subi
  rw [BitVec.ofNat_sub_ofNat_of_le N c (by omega) hc, ← BitVec.ofNat_mul]
  have hlt : c * (N - c) < 2 ^ 32 := by omega
  have hnat : (BitVec.ofNat 32 (c * (N - c))).toNat = c * (N - c) := by
    rw [BitVec.toNat_ofNat]; exact Nat.mod_eq_of_lt hlt
  rw [BitVec.toInt_eq_toNat_of_lt (by rw [hnat]; omega), hnat]

/-- The count of marked entries times the count of unmarked entries, as an extended real: the product of the two
    real numbers c and N - c is the natural number c * (N - c). -/
theorem coe_count_mul (c N : ℕ) (hc : c ≤ N) :
    ((c : ℝ) : EReal) * (((N : ℝ) : EReal) - ((c : ℝ) : EReal)) = (((c * (N - c) : ℕ) : ℝ) : EReal) := by
  rw [← EReal.coe_sub, ← EReal.coe_mul]
  refine congrArg _ ?_
  rw [Nat.cast_mul, Nat.cast_sub hc]

end Cert.Lib.MarkedSums
-- ==== Proof.PairLoss.lean ====
/-
  The pairwise ranking loss of one row, and the two ways the programs compute it.

  A row holds numbers x k and marks b k (one bit per entry).  Its loss is

      (Σ over marked k of e^(-x k)) · (Σ over unmarked k of e^(x k)) / (c · (N - c)),

  c the number of marked entries and N the length of the row: the mean of e^(-(x i - x j)) over the pairs of a marked i
  and an unmarked j, written as a product of two sums.  One program forms the second sum directly and counts the marks
  in 32-bit integers; the other takes a single exponential e^(±x k) per entry (the sign by the mark), obtains the
  second sum as "all entries minus the marked ones", and counts the marks in floating point.  Over the extended
  reals the subtraction needs every entry to be a real number, which is where finiteness of the input is used; the
  integer count never overflows because c · (N - c) ≤ N² < 2^31.
-/
import proofs.«123588_j64596308132130_2_alg».proof.Proof.LibMarkedSums

namespace Cert.PairLoss

open Idealize.ShloMosaic Idealize.ShloMosaic.ValueIdx Cert.Lib.MarkedSums

variable {ι : Type} [Fintype ι]

/-- Σ over the marked entries of e^(-x). -/
noncomputable def posSum (b : ι → BitVec 1) (x : ι → EReal) : EReal := ∑ k, Scalar.select (b k) (Ideal.exp (-(x k))) 0
/-- Σ over the unmarked entries of e^x. -/
noncomputable def negSum (b : ι → BitVec 1) (x : ι → EReal) : EReal := ∑ k, Scalar.select (b k) 0 (Ideal.exp (x k))
/-- The number of pairs (marked, unmarked) in a row of length N, as an extended real. -/
noncomputable def pairs (N : ℕ) (b : ι → BitVec 1) : EReal := (((count b * (N - count b) : ℕ) : ℝ) : EReal)
/-- The row's loss. -/
noncomputable def rowLoss (N : ℕ) (b : ι → BitVec 1) (x : ι → EReal) : EReal :=
  Ideal.div (posSum b x * negSum b x) (pairs N b)

/-- The row's loss as the kernel computes it: one exponential per entry, of -x on the marked entries and of x on the
    others (the negation spelt Z - x with Z the zero literal); the marked sum; the unmarked sum as the total minus
    the marked sum; the count as a float sum of the bits; T the row length as a float. -/
noncomputable def kernelRow (Z T : EReal) (b : ι → BitVec 1) (x : ι → EReal) : EReal :=
  Ideal.div
    ((∑ k, Scalar.select (b k) (Ideal.exp (Scalar.select (b k) (Z - x k) (x k))) Z)
      * ((∑ k, Ideal.exp (Scalar.select (b k) (Z - x k) (x k)))
          - ∑ k, Scalar.select (b k) (Ideal.exp (Scalar.select (b k) (Z - x k) (x k))) Z))
    ((∑ k, (((((b k).setWidth 32).toInt : ℤ) : ℝ) : EReal))
      * (T - ∑ k, (((((b k).setWidth 32).toInt : ℤ) : ℝ) : EReal)))

/-- The row's loss as the reference computes it: the two sums directly, each from the initial value Z, and the
    number of pairs in 32-bit integers (the count n by adding the bits, then n · (N32 - n)) converted to a float. -/
noncomputable def referenceRow (Z : EReal) (N32 : BitVec 32) (b : ι → BitVec 1) (x : ι → EReal) : EReal :=
  Ideal.div
    ((Z + ∑ k, Scalar.select (b k) (Ideal.exp (-(x k))) Z) * (Z + ∑ k, Scalar.select (b k) Z (Ideal.exp (x k))))
    (((((IntOp.muli (Finset.univ.fold IntOp.addi 0#32 fun k => (b k).setWidth 32)
        (IntOp.subi N32 (Finset.univ.fold IntOp.addi 0#32 fun k => (b k).setWidth 32))).toInt : ℤ) : ℝ) : EReal))

/-- The kernel's row is the row's loss when every entry is a real number: the single exponential per entry is
    e^(-x) on the marked and e^x on the unmarked entries, all real, so "total minus marked" is the unmarked sum; the
    float count is the count. -/
theorem kernelRow_eq (N : ℕ) (hcard : Fintype.card ι ≤ N) (b : ι → BitVec 1) (x : ι → EReal)
    (hx : ∀ k, ∃ r : ℝ, x k = (r : EReal)) : kernelRow 0 ((N : ℝ) : EReal) b x = rowLoss N b x := by
  choose r hr using hx
  have he : ∀ k, Ideal.exp (Scalar.select (b k) (0 - x k) (x k))
      = ((Real.exp (Scalar.select (b k) (-(r k)) (r k)) : ℝ) : EReal) := fun k => by
    by_cases hc : b k = 1#1
    · rw [hc, select_one, select_one, hr k, zero_sub, ← EReal.coe_neg, Ideal.exp_coe]
    · rw [eq_zero_of_ne_one hc, select_zero, select_zero, hr k, Ideal.exp_coe]
  have hA : (∑ k, Scalar.select (b k) (Ideal.exp (Scalar.select (b k) (0 - x k) (x k))) 0) = posSum b x :=
    Finset.sum_congr rfl fun k _ => by
      by_cases hc : b k = 1#1
      · rw [hc, select_one, select_one, select_one, zero_sub]
      · rw [eq_zero_of_ne_one hc, select_zero, select_zero]
  have hB : (∑ k, Ideal.exp (Scalar.select (b k) (0 - x k) (x k))) - posSum b x = negSum b x := by
    rw [← hA]
    simp only [he]
    rw [sum_sub_marked]
    refine Finset.sum_congr rfl fun k _ => ?_
    by_cases hc : b k = 1#1
    · rw [hc, select_one, select_one]
    · rw [eq_zero_of_ne_one hc, select_zero, select_zero, select_zero, hr k, Ideal.exp_coe]
  unfold kernelRow rowLoss pairs
  rw [hA, hB, sum_bits_real, coe_count_mul _ _ (le_trans (count_le_card b) hcard)]

/-- The reference's row is the row's loss: the initial values are zero, the 32-bit sum of the bits is the word of
    the count c ≤ N, and c · (N - c) neither wraps nor reaches the sign bit when N · N < 2^31. -/
theorem referenceRow_eq (N : ℕ) (hcard : Fintype.card ι ≤ N) (hN : N * N < 2 ^ 31) (b : ι → BitVec 1) (x : ι → EReal) :
    referenceRow 0 (BitVec.ofNat 32 N) b x = rowLoss N b x := by
  unfold referenceRow rowLoss pairs posSum negSum
  rw [fold_addi_bits_univ b _ (fun _ => rfl), toInt_mul_sub _ _ (le_trans (count_le_card b) hcard) hN, zero_add, zero_add,
    Int.cast_natCast]

end Cert.PairLoss
-- ==== Proof.KernelRow.lean ====
/-
  The kernel's stored block, read at an index.

  The body of the kernel loads a block of 128 rows of the two inputs and stores a 128 × 128 block whose entry (p, q)
  is the loss of row p of the block, the same in every column q: the row's three lane sums (the marked
  exponentials, all the exponentials, the marks) are taken over the 10000 entries of the row, viewed as a column,
  combined, and the column is repeated along the 128 lanes.
-/
import proofs.«123588_j64596308132130_2_alg».proof.Proof.Gen.KernelIdeal.Skeleton
import proofs.«123588_j64596308132130_2_alg».proof.Proof.LibColumnLayout
import proofs.«123588_j64596308132130_2_alg».proof.Proof.PairLoss
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx

/-- A lane sum over the 10000 entries of each of 128 rows, viewed as a column, reads at (p, u) the sum of row p. -/
theorem rowsum_column (v : FVec Ideal S128x10000 .f32) (h : S128x10000.Reduces [1] S128) (hφ : FKind.Formats .f32)
    (hacc : (0x00000000#32 : BitVec 32) = FKind.add.neutral .f32 hφ) (hc : S128.ShapeCasts S128x1) (p : Fin 128) (u : Fin 1) :
    shapeCast S128x1 (multiReduction .add [1] S128 v 0x00000000#32 h hφ hacc) hc (ix2 p u) = ∑ k : Fin 10000, v (ix2 p k) := by
  refine (Cert.Lib.ColumnLayout.shapeCast_a_a1_apply _ hc p u).trans ?_
  refine (Ideal.multiReduction_add_single v _ h hφ hacc (ix1 p)).trans ?_
  exact Finset.sum_congr rfl fun k _ => congrArg v (funext fun a => Fin.ext (by match a with | ⟨0, _⟩ => rfl | ⟨1, _⟩ => rfl))

/-- Entry (p, q) of the stored block is the kernel's loss of row p of the loaded blocks: the marks are the entries of
    the second block equal to 1, the numbers the entries of the first. -/
theorem pay_apply (x0 : Vec Ideal S128x10000 .f32) (x1 : Vec Ideal S128x10000 .i32) (p : Fin 128) (q : Fin 128) :
    k0_pay1 (F := Ideal) x0 x1 (ix2 p q)
      = Cert.PairLoss.kernelRow (Ideal.ofBits .f32 0x00000000#32) (Ideal.ofBits .f32 0x461C4000#32)
          (fun k : Fin 10000 => IntOp.cmpi .eq (x1 (ix2 p k)) 1#32) (fun k : Fin 10000 => x0 (ix2 p k)) := by
  unfold k0_pay1
  refine (Cert.Lib.ColumnLayout.broadcastTo_a1_ab_apply _ _ p q (0 : Fin 1)).trans ?_
  refine (shapeCast_apply _ _ (ix2 p (0 : Fin 1)) (ix2 p (0 : Fin 1)) rfl).trans ?_
  unfold Cert.PairLoss.kernelRow
  refine congrArg₂ Ideal.div (congrArg₂ (· * ·) ?_ (congrArg₂ (· - ·) ?_ ?_)) (congrArg₂ (· * ·) ?_ (congrArg₂ (· - ·) rfl ?_))
  · exact (rowsum_column _ _ _ _ _ p 0).trans (Finset.sum_congr rfl fun k _ => rfl)
  · exact (rowsum_column _ _ _ _ _ p 0).trans (Finset.sum_congr rfl fun k _ => rfl)
  · exact (rowsum_column _ _ _ _ _ p 0).trans (Finset.sum_congr rfl fun k _ => rfl)
  · exact (rowsum_column _ _ _ _ _ p 0).trans (Finset.sum_congr rfl fun k _ => rfl)
  · exact (rowsum_column _ _ _ _ _ p 0).trans (Finset.sum_congr rfl fun k _ => rfl)

/-- The same at an index of the block not yet split into its coordinates: the row is the index's first coordinate. -/
theorem pay_apply_idx (x0 : Vec Ideal S128x10000 .f32) (x1 : Vec Ideal S128x10000 .i32) (j : S128x128.Idx) :
    k0_pay1 (F := Ideal) x0 x1 j
      = Cert.PairLoss.kernelRow (Ideal.ofBits .f32 0x00000000#32) (Ideal.ofBits .f32 0x461C4000#32)
          (fun k : Fin 10000 => IntOp.cmpi .eq (x1 (ix2 (j 0) k)) 1#32) (fun k : Fin 10000 => x0 (ix2 (j 0) k)) := by
  exact (congrArg (k0_pay1 (F := Ideal) x0 x1) (eq_ix2 j)).trans (pay_apply x0 x1 (j 0) (j 1))

end Cert.KernelIdeal.RowValue

end
-- ==== Proof.KernelValue.lean ====
/-
  The kernel's result as the sum of the rows' losses.

  The region runs over 64 grid points; point t loads rows 128 t … 128 t + 127 of both inputs whole (all 10000 columns)
  and writes back rows 128 t … 128 t + 127 of a [8192, 128] array: entry (r, q) is the loss of row r, the same in every
  column q.  The 64 blocks tile the array, so after the region it holds the rows' losses; the operations after the
  region take column 0, view it as a vector of 8192 numbers and add them from zero.
-/
import proofs.«123588_j64596308132130_2_alg».proof.Proof.Gen.KernelIdeal.Frame
import proofs.«123588_j64596308132130_2_alg».proof.Proof.KernelRow
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.LossValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The array the region leaves, as a function of the two input arrays: entry (r, q) is the kernel's loss of row r. -/
def rows (a0 : S8192x10000.Idx → Elt Ideal .f32) (a1 : S8192x10000.Idx → Elt Ideal .i32) : S8192x128.Idx → Elt Ideal .f32 :=
  fun i => Cert.PairLoss.kernelRow (Ideal.ofBits .f32 0x00000000#32) (Ideal.ofBits .f32 0x461C4000#32)
    (fun k : Fin 10000 => IntOp.cmpi .eq (a1 (ix2 (i 0) k)) 1#32) (fun k : Fin 10000 => a0 (ix2 (i 0) k))

/-- The block indices at a grid point: the inputs' row block is the output's, every column block is block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Every row block of the output is some grid point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- What grid point t writes back is block t of the rows' losses of the input arrays. -/
theorem flushed_eq (c : Dev nD) (t : Fin cfg0.N) :
    (dats m 0 c).flushed 2 t = ((cfg0.win 2).blk t).view.read (Elt Ideal) (rows (V m c main_arg0) (V m c main_arg1)) := by
  show (cfg0.win 2).cut (grid0.coords t) ((dats m 0 c).after 2 t) = _
  rw [after0_2]
  unfold out0_2
  rw [View.canon_unit_zero hz]
  simp only [View.ld_unit_zero (S := S128x10000) hz]
  obtain ⟨e0, e1, e2, e3, e4⟩ := idx_facts t
  generalize hP : k0_pay1 (iblk m c 0 t) (iblk m c 1 t) = P
  generalize hG : rows (V m c main_arg0) (V m c main_arg1) = G
  funext j
  show P j = G (((cfg0.win 2).blk t).view.emb j)
  rw [← hP, ← hG]
  refine (Cert.KernelIdeal.RowValue.pay_apply_idx (iblk m c 0 t) (iblk m c 1 t) j).trans ?_
  unfold rows
  refine congrArg₂ (Cert.PairLoss.kernelRow _ _) (funext fun k => ?_) (funext fun k => ?_)
  · refine congrArg (fun w => IntOp.cmpi .eq w 1#32) ?_
    show V m c main_arg1 (((cfg0.win 1).blk t).view.emb (ix2 (j 0) k)) = V m c main_arg1 (ix2 ((((cfg0.win 2).blk t).view.emb j) 0) k)
    refine congrArg _ (funext fun a => Fin.ext ?_)
    match a with
    | ⟨0, _⟩ => show win0_1.index t (0 : Fin 2) * 128 + 1 * (j 0).val = win0_2.index t (0 : Fin 2) * 128 + 1 * (j 0).val; omega
    | ⟨1, _⟩ => show win0_1.index t (1 : Fin 2) * 10000 + 1 * k.val = k.val; omega
  · show V m c main_arg0 (((cfg0.win 0).blk t).view.emb (ix2 (j 0) k)) = V m c main_arg0 (ix2 ((((cfg0.win 2).blk t).view.emb j) 0) k)
    refine congrArg _ (funext fun a => Fin.ext ?_)
    match a with
    | ⟨0, _⟩ => show win0_0.index t (0 : Fin 2) * 128 + 1 * (j 0).val = win0_2.index t (0 : Fin 2) * 128 + 1 * (j 0).val; omega
    | ⟨1, _⟩ => show win0_0.index t (1 : Fin 2) * 10000 + 1 * k.val = k.val; omega

/-- An index of the output array is in point t's block iff each coordinate is in the block's range on its axis. -/
theorem mem_blk (t : Fin cfg0.N) (i : S8192x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every entry of the output array is written back by some grid point: row r by point r / 128. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The output array after the region: the rows' losses of the input arrays. -/
theorem final (c : Dev nD) : (dats m 0 c).arrAt 2 cfg0.N = rows (V m c main_arg0) (V m c main_arg1) :=
  (dats m 0 c).arrAt_eq_of_cover 2 (rows (V m c main_arg0) (V m c main_arg1)) (fun t _ => flushed_eq m c t) cover

/-- Column 0 of an [8192, 128] array y, viewed as a vector of 8192 numbers and added up from the zero literal, is
    that literal plus the sum over the rows r of y (r, 0). -/
theorem column_sum (y : FVec Ideal S8192x128 .f32) (hs : S8192x128.Slices ![0, 0] S8192x1) (hc : S8192x1.ShapeCasts S8192)
    (hr : S8192.ReducesTo [0] S_) (hu : 0 < S_.numel) (i : S_.Idx) :
    Host.reduceAdd (F := Ideal) (shapeCast S8192 (extractStridedSlice S8192x1 ![0, 0] y hs) hc)
        (constant (F := Ideal) S_ .f32 0x00000000#32) hr hu i
      = Ideal.ofBits .f32 0x00000000#32 + ∑ j : S8192.Idx, y (ix2 (j 0) (0 : Fin 128)) := by
  simp only [Host.reduceAdd, Ideal.hostReduceAdd_def]
  refine (Ideal.hostReduceAdd_total hr (fun b => b.elim0) _ _ i).trans ?_
  refine congrArg₂ (· + ·) rfl (Finset.sum_congr rfl fun j _ => ?_)
  refine (shapeCast_apply _ hc j (ix2 (j 0) (0 : Fin 1)) ?_).trans ?_
  · rw [Shape.rowMajor_val_two, Shape.rowMajor_val_one]
    show (j 0).val * 1 + 0 = (j 0).val
    omega
  · exact extractStridedSlice_apply _ y hs _ (ix2 (j 0) (0 : Fin 128)) (fun a => by
      match a with
      | ⟨0, _⟩ => show (j 0).val = 0 + (j 0).val; omega
      | ⟨1, _⟩ => show 0 = 0 + 0; rfl)

/-- The operations after the region take column 0 of the array the region leaves, view it as a vector and add it up
    from zero: the result is the zero literal plus the sum of the rows' losses. -/
theorem tail_eq (c : Dev nD) :
    Pipeline.afterTail₀ cfgs (dats m) 0 (V0 m) [hostOps1] c main_v3
      = fun _ => Ideal.ofBits .f32 0x00000000#32 + ∑ j : S8192.Idx, rows (V m c main_arg0) (V m c main_arg1) (ix2 (j 0) (0 : Fin 128)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0)
      = rows (V m c main_arg0) (V m c main_arg1) :=
    (Pipeline.withArrays_arr spec0 launch0.win.arr_inj c _ _ 2).trans (final m c)
  rw [hw]
  funext i
  exact column_sum (rows (V m c main_arg0) (V m c main_arg1)) _ _ _ _ i

/-- The kernel's run: every weakly fair execution terminates with the result at the zero literal plus the sum of the
    rows' losses of the input arrays, and the input arrays unchanged. -/
theorem run : θ_run defs (onTc (τ := τ) (main (F := Ideal))) ⟨m, fun _ => 0, ρ⟩ fun r => ∀ c : Dev nD,
      r.2.mem ((c : Thread nD τ).loc main_v3) = (fun _ => Ideal.ofBits .f32 0x00000000#32 + ∑ j : S8192.Idx,
          rows (m ((c : Thread nD τ).loc main_arg0)) (m ((c : Thread nD τ).loc main_arg1)) (ix2 (j 0) (0 : Fin 128)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.LossValue

end
-- ==== Proof.ReferenceValue.lean ====
/-
  The reference's result as the sum of the rows' losses.

  The reference computes, for each of the 8192 rows, the marked sum, the unmarked sum and the integer number of pairs,
  divides, and adds the 8192 quotients.  Read one operation at a time its result is the initial value of the final
  sum plus the sum over the rows of the row's loss as the reference forms it; the marks of row r are the entries of the
  integer input equal to 1, its numbers the entries of the float input.
-/
import proofs.«123588_j64596308132130_2_alg».proof.Proof.Gen.ReferenceIdeal.Read
import proofs.«123588_j64596308132130_2_alg».proof.Proof.PairLoss
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The index of entry k of row j, as the reference's row sums name it, by coordinates. -/
theorem idx_row_sum (j : S8192.Idx) (k : Fin 10000) : idx_main_v5 j k = ix2 (j 0) k :=
  funext fun a => Fin.ext (by match a with | ⟨0, _⟩ => rfl | ⟨1, _⟩ => rfl)

theorem idx_row_sum' (j : S8192.Idx) (k : Fin 10000) : idx_main_v8 j k = ix2 (j 0) k :=
  funext fun a => Fin.ext (by match a with | ⟨0, _⟩ => rfl | ⟨1, _⟩ => rfl)

/-- The integer count of row j: the bits of the row added as 32-bit words from zero. -/
theorem count_row (x1 : (⟨S8192x10000, .i32⟩ : BufTy).Contents (Elt Ideal)) (j : S8192.Idx) :
    val_main_v10 (F := Ideal) x1 j
      = Finset.univ.fold IntOp.addi 0#32 (fun k : Fin 10000 => (IntOp.cmpi .eq (x1 (ix2 (j 0) k)) 1#32).setWidth 32) := by
  unfold val_main_v10
  refine (Host.reduce_eq_fold_single IntOp.addi _ _ reducesTo_S8192x10000_S8192_d1 (by decide) h_S_ j).trans ?_
  refine congrArg (fun f => Finset.univ.fold IntOp.addi 0#32 f) (funext fun k => ?_)
  exact (congrArg (val_main_v9 (F := Ideal) x1) (show Shape.Reduces.lift _ j k = ix2 (j 0) k from
    funext fun a => Fin.ext (by match a with | ⟨0, _⟩ => rfl | ⟨1, _⟩ => rfl))).trans rfl

/-- The quotient of row j is the row's loss as the reference forms it. -/
theorem quotient_row (x0 : (⟨S8192x10000, .f32⟩ : BufTy).Contents (Elt Ideal)) (x1 : (⟨S8192x10000, .i32⟩ : BufTy).Contents (Elt Ideal))
    (j : S8192.Idx) :
    val_main_v16 (F := Ideal) x0 x1 j
      = Cert.PairLoss.referenceRow (Ideal.ofBits .f32 0x00000000#32) 10000#32
          (fun k : Fin 10000 => IntOp.cmpi .eq (x1 (ix2 (j 0) k)) 1#32) (fun k : Fin 10000 => x0 (ix2 (j 0) k)) := by
  rw [val_main_v16_apply, val_main_v15_apply, val_main_v14_apply, val_main_v13_apply, val_main_v12_apply, val_main_v5_apply,
    val_main_v8_apply, count_row]
  unfold Cert.PairLoss.referenceRow
  refine congrArg₂ Ideal.div (congrArg₂ (· * ·) (congrArg₂ (· + ·) rfl (Finset.sum_congr rfl fun k _ => ?_))
    (congrArg₂ (· + ·) rfl (Finset.sum_congr rfl fun k _ => ?_))) rfl
  · rw [idx_row_sum]; rfl
  · rw [idx_row_sum']; rfl

/-- The reference's result: the initial value of the final sum plus the sum over the rows of the row's loss. -/
theorem result_eq (x0 : (⟨S8192x10000, .f32⟩ : BufTy).Contents (Elt Ideal)) (x1 : (⟨S8192x10000, .i32⟩ : BufTy).Contents (Elt Ideal)) :
    val_main_v17 (F := Ideal) x0 x1 = fun _ => Ideal.ofBits .f32 0x00000000#32 + ∑ j : S8192.Idx,
      Cert.PairLoss.referenceRow (Ideal.ofBits .f32 0x00000000#32) 10000#32
        (fun k : Fin 10000 => IntOp.cmpi .eq (x1 (ix2 (j 0) k)) 1#32) (fun k : Fin 10000 => x0 (ix2 (j 0) k)) := by
  funext i
  rw [val_main_v17_apply]
  exact congrArg₂ (· + ·) rfl (Finset.sum_congr rfl fun j _ => quotient_row x0 x1 j)

end Cert.ReferenceIdeal.RefValue

end
-- ==== Proof.RowsAgree.lean ====
/-
  The two programs' rows agree.

  The zero literal is the real number 0 and the float literal 10000.0 is the real number 10000; with those, on a row of
  at most 10000 real entries the reference's row and the kernel's row are both the row's loss (10000² < 2^31, so the
  reference's integer count of pairs is exact).
-/
import proofs.«123588_j64596308132130_2_alg».proof.Proof.PairLoss
import Idealize.ShloMosaic.PureOps.Ideal.Laws

namespace Cert.PairLoss

open Idealize.ShloMosaic

/-- The float literal 10000.0 denotes the real number 10000. -/
theorem ofBits_rowLength : Ideal.ofBits .f32 0x461C4000#32 = (((10000 : ℕ) : ℝ) : EReal) := by
  simp [Ideal.ofBits, Ideal.ieee, -EReal.coe_mul]; norm_num

/-- On a row of at most 10000 entries, all real numbers, the reference's row is the kernel's row. -/
theorem referenceRow_eq_kernelRow {ι : Type} [Fintype ι] (hcard : Fintype.card ι ≤ 10000) (b : ι → BitVec 1) (x : ι → EReal)
    (hx : ∀ k, ∃ r : ℝ, x k = (r : EReal)) :
    referenceRow (Ideal.ofBits .f32 0x00000000#32) 10000#32 b x
      = kernelRow (Ideal.ofBits .f32 0x00000000#32) (Ideal.ofBits .f32 0x461C4000#32) b x := by
  rw [Ideal.ofBits_zero_f32, ofBits_rowLength, kernelRow_eq 10000 hcard b x hx]
  exact referenceRow_eq 10000 hcard (by norm_num) b x

end Cert.PairLoss
-- ==== Proof.FiniteInput.lean ====
/-
  The precondition, read back: every entry of the float input is a real number.

  The precondition compares the absolute value of every entry with +∞ and takes the conjunction over the whole array.
  If the conjunction holds then each comparison holds, and an extended real whose absolute value is below +∞ is
  neither +∞ nor -∞.
-/
import proofs.«123588_j64596308132130_2_alg».proof.Pre_finite_inputs
import Idealize.ShloMosaic.Lib.ReduceAll
import Idealize.ShloMosaic.Lib.ValueIdx
import Idealize.ShloMosaic.PureOps.Ideal

namespace Cert.FiniteInput

open Idealize.ShloMosaic

instance : Subsingleton Cert.Pre_finite_inputs.S_.Idx := ⟨fun a b => funext fun d => d.elim0⟩

/-- An extended real whose absolute value max y (-y) is below +∞ is a real number. -/
theorem real_of_abs_lt_top (y : EReal) (h : max y (-y) < ⊤) : ∃ r : ℝ, y = (r : EReal) := by
  induction y using EReal.rec with
  | bot => simp at h
  | top => simp at h
  | coe r => exact ⟨r, rfl⟩

/-- Under the precondition every entry of the float input is a real number. -/
theorem real_of_pre [Cert.Pre_finite_inputs.Facts] (x : FVec Ideal Cert.Pre_finite_inputs.S8192x10000 .f32)
    (t : IVec Cert.Pre_finite_inputs.S8192x10000 32)
    (h : Cert.Pre_finite_inputs.fn (F := Ideal) x t = fun _ => 1#1) (i : Cert.Pre_finite_inputs.S8192x10000.Idx) :
    ∃ r : ℝ, x i = (r : EReal) := by
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  have htop : Ideal.ofBits .f32 0x7F800000#32 = ⊤ := by simp [Ideal.ofBits, Ideal.ieee]
  rw [htop] at hc
  refine real_of_abs_lt_top (x i) ?_
  by_contra hn
  have h0' : Ideal.cmp .olt (max (x i) (-(x i))) ⊤ = 0#1 := by simp [Ideal.cmp, hn]
  rw [h0'] at hc
  exact absurd hc (by decide)

end Cert.FiniteInput
-- ==== Proof.lean ====
/-
  The kernel and its reference compute the same number: the sum over the 8192 rows of the row's pairwise ranking loss

      (Σ over marked k of e^(-x k)) · (Σ over unmarked k of e^(x k)) / (c · (10000 - c)),

  the marks being the entries of the integer input equal to 1 and c their number in the row.

  The reference forms the two sums directly and counts the pairs in 32-bit integers.  The kernel works on blocks of 128
  rows: it takes one exponential per entry, obtains the unmarked sum as the total minus the marked sum, counts in floating
  point, writes each row's loss across a row of a [8192, 128] array, and the operations after the region add up column 0.
  Over the extended reals the two agree once every entry of the float input is a real number, which the precondition
  says: then "total minus marked" is exact, and the integer count c · (10000 - c) ≤ 10^8 neither wraps nor reaches the sign
  bit.  A row with no marked or no unmarked entry divides by zero in both programs alike, the same quotient of the same
  numbers.

  The three frames are the generated ones (the reference's is its run with the result dropped); nothing was rewritten in
  idealizing the kernel, so there is nothing to preserve.
-/
import proofs.«123588_j64596308132130_2_alg».proof.Defs
import proofs.«123588_j64596308132130_2_alg».proof.Proof.Gen.Kernel
import proofs.«123588_j64596308132130_2_alg».proof.Proof.Gen.Kernel.Frame
import proofs.«123588_j64596308132130_2_alg».proof.Proof.Gen.KernelIdeal
import proofs.«123588_j64596308132130_2_alg».proof.Proof.Gen.KernelIdeal.Frame
import proofs.«123588_j64596308132130_2_alg».proof.Proof.Gen.ReferenceIdeal
import proofs.«123588_j64596308132130_2_alg».proof.Proof.Gen.Pre_finite_inputs
import proofs.«123588_j64596308132130_2_alg».proof.Proof.Gen.ReferenceIdeal.Run
import proofs.«123588_j64596308132130_2_alg».proof.Proof.Gen.ReferenceIdeal.Read
import proofs.«123588_j64596308132130_2_alg».proof.Proof.KernelValue
import proofs.«123588_j64596308132130_2_alg».proof.Proof.ReferenceValue
import proofs.«123588_j64596308132130_2_alg».proof.Proof.RowsAgree
import proofs.«123588_j64596308132130_2_alg».proof.Proof.FiniteInput
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the zero literal plus the sum of the rows' losses: the kernel's by its value leg,
    the reference's by its run read one operation at a time, on inputs that agree; row by row the reference's form of
    the loss is the kernel's, every entry being a real number under the precondition. -/
theorem algebraic : Cert.algebraic_KernelIdeal_ReferenceIdeal := by
  intro m ρ m' ρ' hpre hagree
  refine ⟨_, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]
  funext _
  refine congrArg₂ (· + ·) rfl (Finset.sum_congr rfl fun j _ => ?_)
  exact Cert.PairLoss.referenceRow_eq_kernelRow (Fintype.card_fin 10000).le _ _
    (fun k => Cert.FiniteInput.real_of_pre _ _ (hpre c) _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
